-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S20000 : Shape := ⟨1, ![20000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S256 .f32) (main_arg7 : FVec F S256x1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S20000x512 .f32) (main_arg1 : IVec S2x320000 32) (main_arg2 : IVec S20000 32) (main_arg3 : FVec F S512x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S20000x512 : Shape := ⟨2, ![20000, 512]⟩
abbrev S2x320000 : Shape := ⟨2, ![2, 320000]⟩
abbrev S20000 : Shape := ⟨1, ![20000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x256 : Shape := ⟨2, ![20000, 256]⟩
abbrev S2000x512 : Shape := ⟨2, ![2000, 512]⟩
abbrev S2000x256 : Shape := ⟨2, ![2000, 256]⟩
abbrev S340000x256 : Shape := ⟨2, ![340000, 256]⟩
abbrev S1x256 : Shape := ⟨2, ![1, 256]⟩
abbrev S128x256 : Shape := ⟨2, ![128, 256]⟩
abbrev S20000x1 : Shape := ⟨2, ![20000, 1]⟩
abbrev S128x1 : Shape := ⟨2, ![128, 1]⟩
abbrev S1x1 : Shape := ⟨2, ![1, 1]⟩
abbrev S128 : Shape := ⟨1, ![128]⟩

abbrev nBuf : Space → Nat
  | .hbm => 128
  | .vmem => 16
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S20000, .i32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S20000, .i32⟩
  | .hbm, ⟨10, _⟩ => ⟨S1x320000, .i32⟩
  | .hbm, ⟨11, _⟩ => ⟨S320000, .i32⟩
  | .hbm, ⟨12, _⟩ => ⟨S340000, .i32⟩
  | .hbm, ⟨13, _⟩ => ⟨S1x320000, .i32⟩
  | .hbm, ⟨14, _⟩ => ⟨S320000, .i32⟩
  | .hbm, ⟨15, _⟩ => ⟨S340000, .i32⟩
  | .hbm, ⟨16, _⟩ => ⟨S_, .f32⟩
  | .hbm, ⟨17, _⟩ => ⟨S20000, .f32⟩
  | .hbm, ⟨18, _⟩ => ⟨S_, .i32⟩
  | .hbm, ⟨19, _⟩ => ⟨S340000, .i32⟩
  | .hbm, ⟨20, _⟩ => ⟨S340000, .i1⟩
  | .hbm, ⟨21, _⟩ => ⟨S_, .i32⟩
  | .hbm, ⟨22, _⟩ => ⟨S340000, .i32⟩
  | .hbm, ⟨23, _⟩ => ⟨S340000, .i32⟩
  | .hbm, ⟨24, _⟩ => ⟨S340000, .i32⟩
  | .hbm, ⟨25, _⟩ => ⟨S340000x1, .i32⟩
  | .hbm, ⟨26, _⟩ => ⟨S_, .f32⟩
  | .hbm, ⟨27, _⟩ => ⟨S340000, .f32⟩
  | .hbm, ⟨28, _⟩ => ⟨S20000, .f32⟩
  | .hbm, ⟨29, _⟩ => ⟨S_, .f32⟩
  | .hbm, ⟨30, _⟩ => ⟨S20000, .f32⟩
  | .hbm, ⟨31, _⟩ => ⟨S20000, .i1⟩
  | .hbm, ⟨32, _⟩ => ⟨S20000, .f32⟩
  | .hbm, ⟨33, _⟩ => ⟨S_, .f32⟩
  | .hbm, ⟨34, _⟩ => ⟨S_, .f32⟩
  | .hbm, ⟨35, _⟩ => ⟨S20000, .f32⟩
  | .hbm, ⟨36, _⟩ => ⟨S20000, .f32⟩
  | .hbm, ⟨37, _⟩ => ⟨S_, .i32⟩
  | .hbm, ⟨38, _⟩ => ⟨S340000, .i32⟩
  | .hbm, ⟨39, _⟩ => ⟨S340000, .i1⟩
  | .hbm, ⟨40, _⟩ => ⟨S_, .i32⟩
  | .hbm, ⟨41, _⟩ => ⟨S340000, .i32⟩
  | .hbm, ⟨42, _⟩ => ⟨S340000, .i32⟩
  | .hbm, ⟨43, _⟩ => ⟨S340000, .i32⟩
  | .hbm, ⟨44, _⟩ => ⟨S340000x1, .i32⟩
  | .hbm, ⟨45, _⟩ => ⟨S340000, .f32⟩
  | .hbm, ⟨46, _⟩ => ⟨S_, .i32⟩
  | .hbm, ⟨47, _⟩ => ⟨S340000, .i32⟩
  | .hbm, ⟨48, _⟩ => ⟨S340000, .i1⟩
  | .hbm, ⟨49, _⟩ => ⟨S_, .i32⟩
  | .hbm, ⟨50, _⟩ => ⟨S340000, .i32⟩
  | .hbm, ⟨51, _⟩ => ⟨S340000, .i32⟩
  | .hbm, ⟨52, _⟩ => ⟨S340000, .i32⟩
  | .hbm, ⟨53, _⟩ => ⟨S340000x1, .i32⟩
  | .hbm, ⟨54, _⟩ => ⟨S340000, .f32⟩
  | .hbm, ⟨55, _⟩ => ⟨S340000, .f32⟩
  | .hbm, ⟨56, _⟩ => ⟨S340000x1, .f32⟩
  | .hbm, ⟨57, _⟩ => ⟨S20000x256, .bf16⟩
  | .hbm, ⟨58, _⟩ => ⟨S_, .f32⟩
  | .hbm, ⟨59, _⟩ => ⟨S20000x256, .f32⟩
  | .hbm, ⟨60, _⟩ => ⟨S_, .i32⟩
  | .hbm, ⟨61, _⟩ => ⟨S340000, .i32⟩
  | .hbm, ⟨62, _⟩ => ⟨S340000, .i1⟩
  | .hbm, ⟨63, _⟩ => ⟨S_, .i32⟩
  | .hbm, ⟨64, _⟩ => ⟨S340000, .i32⟩
  | .hbm, ⟨65, _⟩ => ⟨S340000, .i32⟩
  | .hbm, ⟨66, _⟩ => ⟨S340000, .i32⟩
  | .hbm, ⟨67, _⟩ => ⟨S340000x1, .i32⟩
  | .hbm, ⟨68, _⟩ => ⟨S340000x256, .bf16⟩
  | .hbm, ⟨69, _⟩ => ⟨S340000x256, .f32⟩
  | .hbm, ⟨70, _⟩ => ⟨S340000x256, .f32⟩
  | .hbm, ⟨71, _⟩ => ⟨S340000x256, .f32⟩
  | .hbm, ⟨72, _⟩ => ⟨S_, .i32⟩
  | .hbm, ⟨73, _⟩ => ⟨S340000, .i32⟩
  | .hbm, ⟨74, _⟩ => ⟨S340000, .i1⟩
  | .hbm, ⟨75, _⟩ => ⟨S_, .i32⟩
  | .hbm, ⟨76, _⟩ => ⟨S340000, .i32⟩
  | .hbm, ⟨77, _⟩ => ⟨S340000, .i32⟩
  | .hbm, ⟨78, _⟩ => ⟨S340000, .i32⟩
  | .hbm, ⟨79, _⟩ => ⟨S340000x1, .i32⟩
  | .hbm, ⟨80, _⟩ => ⟨S20000x256, .f32⟩
  | .hbm, ⟨81, _⟩ => ⟨S1x256, .f32⟩
  | .hbm, ⟨82, _⟩ => ⟨S20000x256, .bf16⟩
  | .hbm, ⟨83, _⟩ => ⟨S_, .f32⟩
  | .hbm, ⟨84, _⟩ => ⟨S20000x256, .f32⟩
  | .hbm, ⟨85, _⟩ => ⟨S_, .i32⟩
  | .hbm, ⟨86, _⟩ => ⟨S340000, .i32⟩
  | .hbm, ⟨87, _⟩ => ⟨S340000, .i1⟩
  | .hbm, ⟨88, _⟩ => ⟨S_, .i32⟩
  | .hbm, ⟨89, _⟩ => ⟨S340000, .i32⟩
  | .hbm, ⟨90, _⟩ => ⟨S340000, .i32⟩
  | .hbm, ⟨91, _⟩ => ⟨S340000, .i32⟩
  | .hbm, ⟨92, _⟩ => ⟨S340000x1, .i32⟩
  | .hbm, ⟨93, _⟩ => ⟨S340000x256, .bf16⟩
  | .hbm, ⟨94, _⟩ => ⟨S340000x256, .f32⟩
  | .hbm, ⟨95, _⟩ => ⟨S340000x256, .f32⟩
  | .hbm, ⟨96, _⟩ => ⟨S340000x256, .f32⟩
  | .hbm, ⟨97, _⟩ => ⟨S_, .i32⟩
  | .hbm, ⟨98, _⟩ => ⟨S340000, .i32⟩
  | .hbm, ⟨99, _⟩ => ⟨S340000, .i1⟩
  | .hbm, ⟨100, _⟩ => ⟨S_, .i32⟩
  | .hbm, ⟨101, _⟩ => ⟨S340000, .i32⟩
  | .hbm, ⟨102, _⟩ => ⟨S340000, .i32⟩
  | .hbm, ⟨103, _⟩ => ⟨S340000, .i32⟩
  | .hbm, ⟨104, _⟩ => ⟨S340000x1, .i32⟩
  | .hbm, ⟨105, _⟩ => ⟨S20000x256, .f32⟩
  | .hbm, ⟨106, _⟩ => ⟨S1x256, .f32⟩
  | .hbm, ⟨107, _⟩ => ⟨S20000x256, .f32⟩
  | .hbm, ⟨108, _⟩ => ⟨S_, .f32⟩
  | .hbm, ⟨109, _⟩ => ⟨S128x256, .f32⟩
  | .hbm, ⟨110, _⟩ => ⟨S20000x1, .i32⟩
  | .hbm, ⟨111, _⟩ => ⟨S128x256, .f32⟩
  | .hbm, ⟨112, _⟩ => ⟨S_, .f32⟩
  | .hbm, ⟨113, _⟩ => ⟨S20000x1, .f32⟩
  | .hbm, ⟨114, _⟩ => ⟨S_, .f32⟩
  | .hbm, ⟨115, _⟩ => ⟨S128x1, .f32⟩
  | .hbm, ⟨116, _⟩ => ⟨S20000x1, .i32⟩
  | .hbm, ⟨117, _⟩ => ⟨S128x1, .f32⟩
  | .hbm, ⟨118, _⟩ => ⟨S_, .f32⟩
  | .hbm, ⟨119, _⟩ => ⟨S128x1, .f32⟩
  | .hbm, ⟨120, _⟩ => ⟨S128x1, .f32⟩
  | .hbm, ⟨121, _⟩ => ⟨S128x256, .f32⟩
  | .hbm, ⟨122, _⟩ => ⟨S128x256, .f32⟩
  | .hbm, ⟨123, _⟩ => ⟨S128x1, .f32⟩
  | .hbm, ⟨124, _⟩ => ⟨S1x1, .f32⟩
  | .hbm, ⟨125, _⟩ => ⟨S128x1, .f32⟩
  | .hbm, ⟨126, _⟩ => ⟨S128x1, .f32⟩
  | .hbm, ⟨127, _⟩ => ⟨S128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_c_14 : Ref sig .tc := ⟨.hbm, 85, rfl⟩
abbrev main_v58 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_19 : Ref sig .tc := ⟨.hbm, 112, rfl⟩
abbrev main_v80 : Ref sig .tc := ⟨.hbm, 113, rfl⟩
abbrev main_cst_20 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S_S340000 : S_.BroadcastsInDim S340000 (![] : Fin 0 → Fin S340000.rank)
  bcast_S340000_S340000x1_0 : S340000.BroadcastsInDim S340000x1 (![0] : Fin 1 → Fin S340000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S20000x256 : S_.BroadcastsInDim S20000x256 (![] : Fin 0 → Fin S20000x256.rank)
  bcast_S340000x1_S340000x256_0_1 : S340000x1.BroadcastsInDim S340000x256 (![0, 1] : Fin 2 → Fin S340000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S128x256 : S_.BroadcastsInDim S128x256 (![] : Fin 0 → Fin S128x256.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x512_S512x256_S2000x256_1_0_0_1_n_n_wf : DotDims.WF S2000x512 S512x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S2000x256_S256x256_S2000x256_1_0_0_1_n_n_wf : DotDims.WF S2000x256 S256x256 S2000x256 [1] [0] [0] [1] [] []
  scatter_S128x256_S20000x1_S20000x256_1_0_0_1_wf : ScatterDims.WF S128x256 S20000x1 S20000x256 [1] [0] [0] 1
  scatter_S128x1_S20000x1_S20000x1_1_0_0_1_wf : ScatterDims.WF S128x1 S20000x1 S20000x1 [1] [0] [0] 1
  dot_S128x256_S256x1_S128x1_1_0_0_1_n_n_wf : DotDims.WF S128x256 S256x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .bf16 = 32 ∨ (Rect.block (s := S20000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .bf16 = 32 ∨ (Rect.block (s := S20000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S128x256_S20000x1_S20000x256_1_0_0_1 : ScatterDims S128x256 S20000x1 S20000x256 where
  updateWindowDims := [1]
  insertedWindowDims := [0]
  scatterDimsToOperandDims := [0]
  indexVectorDim := 1
  wf := scatter_S128x256_S20000x1_S20000x256_1_0_0_1_wf
def scatter_S128x1_S20000x1_S20000x1_1_0_0_1 : ScatterDims S128x1 S20000x1 S20000x1 where
  updateWindowDims := [1]
  insertedWindowDims := [0]
  scatterDimsToOperandDims := [0]
  indexVectorDim := 1
  wf := scatter_S128x1_S20000x1_S20000x1_1_0_0_1_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v74) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S20000 : Shape := ⟨1, ![20000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S340000 : Shape := ⟨1, ![340000]⟩
abbrev S20000x256 : Shape := ⟨2, ![20000, 256]⟩
abbrev S_ : Shape := ⟨0, ![]⟩
abbrev S340000x1 : Shape := ⟨2, ![340000, 1]⟩
abbrev S340000x256 : Shape := ⟨2, ![340000, 256]⟩
abbrev S1x256 : Shape := ⟨2, ![1, 256]⟩
abbrev S128x256 : Shape := ⟨2, ![128, 256]⟩
abbrev S20000x1 : Shape := ⟨2, ![20000, 1]⟩
abbrev S128x1 : Shape := ⟨2, ![128, 1]⟩
abbrev S1x1 : Shape := ⟨2, ![1, 1]⟩
abbrev S128 : Shape := ⟨1, ![128]⟩

abbrev nBuf : Space → Nat
  | .hbm => 176
  | .vmem => 0
  | .smem => 0
  | _ => 0

abbrev hbmTy0_0 (i : Nat) : BufTy := match i % 128 with
  | 0 => ⟨S20000x512, .f32⟩
  | 1 => ⟨S2x320000, .i32⟩
  | 2 => ⟨S20000, .i32⟩
  | 3 => ⟨S512x256, .f32⟩
  | 4 => ⟨S256, .f32⟩
  | 5 => ⟨S256x256, .f32⟩
  | 6 => ⟨S256, .f32⟩
  | 7 => ⟨S256x1, .f32⟩
  | 8 => ⟨S1, .f32⟩
  | 9 => ⟨S20000, .i32⟩
  | 10 => ⟨S1x320000, .i32⟩
  | 11 => ⟨S320000, .i32⟩
  | 12 => ⟨S340000, .i32⟩
  | 13 => ⟨S1x320000, .i32⟩
  | 14 => ⟨S320000, .i32⟩
  | 15 => ⟨S340000, .i32⟩
  | 16 => ⟨S20000x256, .f32⟩
  | 17 => ⟨S_, .f32⟩
  | 18 => ⟨S20000, .f32⟩
  | 19 => ⟨S_, .i32⟩
  | 20 => ⟨S340000, .i32⟩
  | 21 => ⟨S340000, .i1⟩
  | 22 => ⟨S_, .i32⟩
  | 23 => ⟨S340000, .i32⟩
  | 24 => ⟨S340000, .i32⟩
  | 25 => ⟨S340000, .i32⟩
  | 26 => ⟨S340000x1, .i32⟩
  | 27 => ⟨S_, .f32⟩
  | 28 => ⟨S340000, .f32⟩
  | 29 => ⟨S20000, .f32⟩
  | 30 => ⟨S_, .f32⟩
  | 31 => ⟨S20000, .f32⟩
  | 32 => ⟨S20000, .i1⟩
  | 33 => ⟨S20000, .f32⟩
  | 34 => ⟨S_, .f32⟩
  | 35 => ⟨S_, .f32⟩
  | 36 => ⟨S20000, .f32⟩
  | 37 => ⟨S20000, .f32⟩
  | 38 => ⟨S_, .i32⟩
  | 39 => ⟨S340000, .i32⟩
  | 40 => ⟨S340000, .i1⟩
  | 41 => ⟨S_, .i32⟩
  | 42 => ⟨S340000, .i32⟩
  | 43 => ⟨S340000, .i32⟩
  | 44 => ⟨S340000, .i32⟩
  | 45 => ⟨S340000x1, .i32⟩
  | 46 => ⟨S340000, .f32⟩
  | 47 => ⟨S_, .i32⟩
  | 48 => ⟨S340000, .i32⟩
  | 49 => ⟨S340000, .i1⟩
  | 50 => ⟨S_, .i32⟩
  | 51 => ⟨S340000, .i32⟩
  | 52 => ⟨S340000, .i32⟩
  | 53 => ⟨S340000, .i32⟩
  | 54 => ⟨S340000x1, .i32⟩
  | 55 => ⟨S340000, .f32⟩
  | 56 => ⟨S340000, .f32⟩
  | 57 => ⟨S340000x1, .f32⟩
  | 58 => ⟨S_, .f32⟩
  | 59 => ⟨S20000x256, .f32⟩
  | 60 => ⟨S_, .i32⟩
  | 61 => ⟨S340000, .i32⟩
  | 62 => ⟨S340000, .i1⟩
  | 63 => ⟨S_, .i32⟩
  | 64 => ⟨S340000, .i32⟩
  | 65 => ⟨S340000, .i32⟩
  | 66 => ⟨S340000, .i32⟩
  | 67 => ⟨S340000x1, .i32⟩
  | 68 => ⟨S340000x256, .f32⟩
  | 69 => ⟨S340000x256, .f32⟩
  | 70 => ⟨S340000x256, .f32⟩
  | 71 => ⟨S_, .i32⟩
  | 72 => ⟨S340000, .i32⟩
  | 73 => ⟨S340000, .i1⟩
  | 74 => ⟨S_, .i32⟩
  | 75 => ⟨S340000, .i32⟩
  | 76 => ⟨S340000, .i32⟩
  | 77 => ⟨S340000, .i32⟩
  | 78 => ⟨S340000x1, .i32⟩
  | 79 => ⟨S20000x256, .f32⟩
  | 80 => ⟨S1x256, .f32⟩
  | 81 => ⟨S20000x256, .f32⟩
  | 82 => ⟨S20000x256, .f32⟩
  | 83 => ⟨S_, .f32⟩
  | 84 => ⟨S20000x256, .f32⟩
  | 85 => ⟨S20000x256, .f32⟩
  | 86 => ⟨S20000x256, .f32⟩
  | 87 => ⟨S_, .f32⟩
  | 88 => ⟨S20000, .f32⟩
  | 89 => ⟨S_, .i32⟩
  | 90 => ⟨S340000, .i32⟩
  | 91 => ⟨S340000, .i1⟩
  | 92 => ⟨S_, .i32⟩
  | 93 => ⟨S340000, .i32⟩
  | 94 => ⟨S340000, .i32⟩
  | 95 => ⟨S340000, .i32⟩
  | 96 => ⟨S340000x1, .i32⟩
  | 97 => ⟨S_, .f32⟩
  | 98 => ⟨S340000, .f32⟩
  | 99 => ⟨S20000, .f32⟩
  | 100 => ⟨S_, .f32⟩
  | 101 => ⟨S20000, .f32⟩
  | 102 => ⟨S20000, .i1⟩
  | 103 => ⟨S20000, .f32⟩
  | 104 => ⟨S_, .f32⟩
  | 105 => ⟨S_, .f32⟩
  | 106 => ⟨S20000, .f32⟩
  | 107 => ⟨S20000, .f32⟩
  | 108 => ⟨S_, .i32⟩
  | 109 => ⟨S340000, .i32⟩
  | 110 => ⟨S340000, .i1⟩
  | 111 => ⟨S_, .i32⟩
  | 112 => ⟨S340000, .i32⟩
  | 113 => ⟨S340000, .i32⟩
  | 114 => ⟨S340000, .i32⟩
  | 115 => ⟨S340000x1, .i32⟩
  | 116 => ⟨S340000, .f32⟩
  | 117 => ⟨S_, .i32⟩
  | 118 => ⟨S340000, .i32⟩
  | 119 => ⟨S340000, .i1⟩
  | 120 => ⟨S_, .i32⟩
  | 121 => ⟨S340000, .i32⟩
  | 122 => ⟨S340000, .i32⟩
  | 123 => ⟨S340000, .i32⟩
  | 124 => ⟨S340000x1, .i32⟩
  | 125 => ⟨S340000, .f32⟩
  | 126 => ⟨S340000, .f32⟩
  | 127 => ⟨S340000x1, .f32⟩
  | _ => ⟨S20000x512, .f32⟩

abbrev hbmTy0_1 (i : Nat) : BufTy := match i % 128 with
  | 0 => ⟨S_, .f32⟩
  | 1 => ⟨S20000x256, .f32⟩
  | 2 => ⟨S_, .i32⟩
  | 3 => ⟨S340000, .i32⟩
  | 4 => ⟨S340000, .i1⟩
  | 5 => ⟨S_, .i32⟩
  | 6 => ⟨S340000, .i32⟩
  | 7 => ⟨S340000, .i32⟩
  | 8 => ⟨S340000, .i32⟩
  | 9 => ⟨S340000x1, .i32⟩
  | 10 => ⟨S340000x256, .f32⟩
  | 11 => ⟨S340000x256, .f32⟩
  | 12 => ⟨S340000x256, .f32⟩
  | 13 => ⟨S_, .i32⟩
  | 14 => ⟨S340000, .i32⟩
  | 15 => ⟨S340000, .i1⟩
  | 16 => ⟨S_, .i32⟩
  | 17 => ⟨S340000, .i32⟩
  | 18 => ⟨S340000, .i32⟩
  | 19 => ⟨S340000, .i32⟩
  | 20 => ⟨S340000x1, .i32⟩
  | 21 => ⟨S20000x256, .f32⟩
  | 22 => ⟨S1x256, .f32⟩
  | 23 => ⟨S20000x256, .f32⟩
  | 24 => ⟨S20000x256, .f32⟩
  | 25 => ⟨S_, .f32⟩
  | 26 => ⟨S20000x256, .f32⟩
  | 27 => ⟨S20000x256, .f32⟩
  | 28 => ⟨S_, .f32⟩
  | 29 => ⟨S128x256, .f32⟩
  | 30 => ⟨S20000x1, .i32⟩
  | 31 => ⟨S128x256, .f32⟩
  | 32 => ⟨S_, .f32⟩
  | 33 => ⟨S20000x1, .f32⟩
  | 34 => ⟨S_, .f32⟩
  | 35 => ⟨S128x1, .f32⟩
  | 36 => ⟨S20000x1, .i32⟩
  | 37 => ⟨S128x1, .f32⟩
  | 38 => ⟨S_, .f32⟩
  | 39 => ⟨S128x1, .f32⟩
  | 40 => ⟨S128x1, .f32⟩
  | 41 => ⟨S128x256, .f32⟩
  | 42 => ⟨S128x256, .f32⟩
  | 43 => ⟨S128x1, .f32⟩
  | 44 => ⟨S1x1, .f32⟩
  | 45 => ⟨S128x1, .f32⟩
  | 46 => ⟨S128x1, .f32⟩
  | 47 => ⟨S128, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_v71 : Ref sig .tc := ⟨.hbm, 107, rfl⟩
abbrev main_c_19 : Ref sig .tc := ⟨.hbm, 108, rfl⟩
abbrev main_v72 : Ref sig .tc := ⟨.hbm, 109, rfl⟩
abbrev main_v73 : Ref sig .tc := ⟨.hbm, 110, rfl⟩
abbrev main_c_20 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_21 : Ref sig .tc := ⟨.hbm, 117, rfl⟩
abbrev main_v79 : Ref sig .tc := ⟨.hbm, 118, rfl⟩
abbrev main_v80 : Ref sig .tc := ⟨.hbm, 119, rfl⟩
abbrev main_c_22 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_23 : Ref sig .tc := ⟨.hbm, 128, rfl⟩
abbrev main_v88 : Ref sig .tc := ⟨.hbm, 129, rfl⟩
abbrev main_c_24 : Ref sig .tc := ⟨.hbm, 130, rfl⟩
abbrev main_v89 : Ref sig .tc := ⟨.hbm, 131, rfl⟩
abbrev main_v90 : Ref sig .tc := ⟨.hbm, 132, rfl⟩
abbrev main_c_25 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_26 : Ref sig .tc := ⟨.hbm, 141, rfl⟩
abbrev main_v98 : Ref sig .tc := ⟨.hbm, 142, rfl⟩
abbrev main_v99 : Ref sig .tc := ⟨.hbm, 143, rfl⟩
abbrev main_c_27 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_call3_cst : Ref sig .tc := ⟨.hbm, 153, rfl⟩
abbrev main_call3_v0 : Ref sig .tc := ⟨.hbm, 154, rfl⟩
abbrev main_v108 : Ref sig .tc := ⟨.hbm, 155, rfl⟩
abbrev main_cst_28 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_29 : Ref sig .tc := ⟨.hbm, 160, rfl⟩
abbrev main_v112 : Ref sig .tc := ⟨.hbm, 161, rfl⟩
abbrev main_cst_30 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_31 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S_S340000 : S_.BroadcastsInDim S340000 (![] : Fin 0 → Fin S340000.rank)
  bcast_S340000_S340000x1_0 : S340000.BroadcastsInDim S340000x1 (![0] : Fin 1 → Fin S340000x1.rank)
  bcast_S_S20000x256 : S_.BroadcastsInDim S20000x256 (![] : Fin 0 → Fin S20000x256.rank)
  bcast_S340000x1_S340000x256_0_1 : S340000x1.BroadcastsInDim S340000x256 (![0, 1] : Fin 2 → Fin S340000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S128x256 : S_.BroadcastsInDim S128x256 (![] : Fin 0 → Fin S128x256.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  dot_S20000x512_S512x256_S20000x256_1_0_0_1_n_n_wf : DotDims.WF S20000x512 S512x256 S20000x256 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x256_S20000x256_1_0_0_1_n_n_wf : DotDims.WF S20000x256 S256x256 S20000x256 [1] [0] [0] [1] [] []
  scatter_S128x256_S20000x1_S20000x256_1_0_0_1_wf : ScatterDims.WF S128x256 S20000x1 S20000x256 [1] [0] [0] 1
  scatter_S128x1_S20000x1_S20000x1_1_0_0_1_wf : ScatterDims.WF S128x1 S20000x1 S20000x1 [1] [0] [0] 1
  dot_S128x256_S256x1_S128x1_1_0_0_1_n_n_wf : DotDims.WF S128x256 S256x1 S128x1 [1] [0] [0] [1] [] []

variable [Facts₀]

def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S128x256_S20000x1_S20000x256_1_0_0_1 : ScatterDims S128x256 S20000x1 S20000x256 where
  updateWindowDims := [1]
  insertedWindowDims := [0]
  scatterDimsToOperandDims := [0]
  indexVectorDim := 1
  wf := scatter_S128x256_S20000x1_S20000x256_1_0_0_1_wf
def scatter_S128x1_S20000x1_S20000x1_1_0_0_1 : ScatterDims S128x1 S20000x1 S20000x1 where
  updateWindowDims := [1]
  insertedWindowDims := [0]
  scatterDimsToOperandDims := [0]
  indexVectorDim := 1
  wf := scatter_S128x1_S20000x1_S20000x1_1_0_0_1_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

class Facts : Prop extends Facts₀ where

variable [Facts]
-- ==== Proof.KernelRun.lean ====
/-
  The idealized kernel program's run, with every buffer named.

  The program is three grid kernels among four stretches of host operations. Its generated frame certificate folds the
  buffers' contents through the program — a stretch applies its operations, a kernel region replaces its arrays by what
  its write-backs leave — down to the contents `W9` at the return, and then keeps only the statement that the arguments are
  unchanged. Here the same launch is read back whole: every weakly fair execution terminates, nothing faults, and each
  unscoped buffer of each core ends at `W9`'s contents. The result buffer and the arguments are then read off.
-/
import proofs.«161100_j18511309045924_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core ends
    at the contents the fold through the program gives it. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run, keeping the result buffer and the nine arguments: the result at the fold's contents, the arguments as
    launched. -/
theorem run_result : θ_run defs (onTc (τ := τ) (main (F := F))) ⟨m, fun _ => 0, ρ⟩ (fun r => ∀ c : Dev nD,
      r.2.mem ((c.tc : Thread nD τ).loc main_v92) = W9 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v92 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)
    (run_held m ρ)

end Cert.KernelIdeal.Whole

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«161100_j18511309045924_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.Region0.lean ====
/-
  The first kernel: a row-blocked matrix product.

  The grid has ten points. Point `t` reads rows `2000 t … 2000 t + 1999` of the `[20000, 512]` array `x` and the whole
  `[512, 256]` array `w`, and writes the product of the two blocks to the same rows of the output (the changes of float
  format around the product are the identity on the extended reals). A row of a product depends on that row of the left
  factor only, and the ten row blocks tile the output, so after the last point the output array is the product `x · w` of
  the two arrays as the kernel found them. Stated for any contents `V` of the buffers at the kernel's entry.
-/
import proofs.«161100_j18511309045924_1_alg».proof.Proof.Gen.KernelIdeal.Frame
import proofs.«161100_j18511309045924_1_alg».proof.Proof.LibMatProduct
import Idealize.ShloMosaic.Lib.Pipeline.Value

set_option maxRecDepth 16384

noncomputable section

namespace Cert.KernelIdeal.Project

open Cert.KernelIdeal Cert.KernelIdeal.Gen Cert.MatProduct
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem payload_eq (x0 : Vec Ideal S2000x512 .f32) (x1 : Vec Ideal S512x256 .f32) :
    k0_pay1 x0 x1 = prod (M := 2000) (K := 512) (N := 256) x0 x1 := by
  unfold k0_pay1
  exact matmul_zero_eq_prod (M := 2000) (K := 512) (N := 256) (φ₁ := .bf16) (φ₂ := .bf16) none x0 x1

/-- The printed index maps over the grid: the row windows sit at block `(t, 0)`, the right factor's at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the kernel found them. -/
theorem flushed_eq (c : Dev nD) (t : Fin cfg0.N) :
    (dat0 V c).flushed 2 t = ((cfg0.win 2).blk t).view.read (Elt Ideal)
      (prod (M := 20000) (K := 512) (N := 256) (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  funext j
  refine (congrFun (payload_eq (iblk0 V c 0 t) (iblk0 V c 1 t)) j).trans ?_
  let X : S20000x512.Idx → EReal := V c main_arg0
  let W : S512x256.Idx → EReal := V c main_arg3
  show (∑ k : Fin 512, X (((cfg0.win 0).blk t).view.emb (ix2 (rowOf (M := 2000) (N := 256) j) k))
        * W (((cfg0.win 1).blk t).view.emb (ix2 k (colOf (M := 2000) (N := 256) j))))
    = ∑ k : Fin 512, X (ix2 (rowOf (M := 20000) (N := 256) (((cfg0.win 2).blk t).view.emb j)) k)
        * W (ix2 k (colOf (M := 20000) (N := 256) (((cfg0.win 2).blk t).view.emb j)))
  refine Finset.sum_congr rfl fun k _ => ?_
  have h0 : ((cfg0.win 0).blk t).view.emb (ix2 (rowOf (M := 2000) (N := 256) j) k)
      = ix2 (rowOf (M := 20000) (N := 256) (((cfg0.win 2).blk t).view.emb j)) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ((cfg0.win 1).blk t).view.emb (ix2 k (colOf (M := 2000) (N := 256) j))
      = ix2 k (colOf (M := 20000) (N := 256) (((cfg0.win 2).blk t).view.emb j)) := by
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [h0, h1]

/-- An index of the output array is in point `t`'s block iff each coordinate is in the block's range on its axis. -/
theorem mem_blk (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v36).slice (win0_2.rect t)).set ↔ _
  rw [View.set_slice_whole, Rect.mem_set_unit]
  exact Iff.rfl

/-- Row `r` of the output is in the block of point `r / 2000`: the ten blocks cover the array. -/
theorem cover (i : S20000x256.Idx) : ∃ t : Fin cfg0.N, (cfg0.win 2).flush t = true ∧ i ∈ ((cfg0.win 2).blk t).view.set := by
  have hi0 : (i 0).val < 20000 := (i 0).isLt
  have hi1 : (i 1).val < 256 := (i 1).isLt
  have hlt : (i 0).val / 2000 < cfg0.N := by rw [show cfg0.N = 10 from N_0]; omega
  refine ⟨⟨(i 0).val / 2000, hlt⟩, flush0_2 _, ?_⟩
  rw [mem_blk]
  obtain ⟨e0, e1, e2, e3, e4, e5⟩ := idx_facts ⟨(i 0).val / 2000, hlt⟩
  have e4' : win0_2.index ⟨(i 0).val / 2000, hlt⟩ (0 : Fin 2) = (i 0).val / 2000 := e4
  intro a
  match a with
  | ⟨0, _⟩ => show win0_2.index _ (0 : Fin 2) * 2000 ≤ (i 0).val ∧ (i 0).val < win0_2.index _ (0 : Fin 2) * 2000 + 2000; rw [e4']; omega
  | ⟨1, _⟩ => show win0_2.index _ (1 : Fin 2) * 256 ≤ (i 1).val ∧ (i 1).val < win0_2.index _ (1 : Fin 2) * 256 + 256; rw [e5]; omega

/-- After the last point the output array is the product of the two arrays as the kernel found them. -/
theorem final (c : Dev nD) : (dat0 V c).arrAt 2 cfg0.N = prod (M := 20000) (K := 512) (N := 256) (V c main_arg0) (V c main_arg3) :=
  (dat0 V c).arrAt_eq_of_cover 2 (prod (M := 20000) (K := 512) (N := 256) (V c main_arg0) (V c main_arg3)) (fun t _ => flushed_eq V c t) cover

end Cert.KernelIdeal.Project

end
-- ==== Proof.Region2.lean ====
/-
  The third kernel: add a bias row and clamp below at zero, block by block.

  The grid has ten points. Point `t` reads rows `2000 t … 2000 t + 1999` of a `[20000, 256]` array `a` and the whole
  `[1, 256]` row `b`, and writes `max (a + b, 0)` to the same rows of the output. The ten row blocks tile the output, so
  after the last point the output array is the one function `i ↦ max (a i + b (0, column of i), 0)` of the two arrays as
  the kernel found them. Stated for any contents `V` of the buffers at the kernel's entry, and for any float instance.
-/
import proofs.«161100_j18511309045924_1_alg».proof.Proof.Gen.KernelIdeal.Frame
import Idealize.ShloMosaic.Lib.Pipeline.Value
import Idealize.ShloMosaic.Lib.ValueIdx

set_option maxRecDepth 16384

noncomputable section

namespace Cert.KernelIdeal.BiasClamp

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The bias row's entry under column `y 1` of a `[n, 256]` index. -/
def under {n : ℕ} (y : (⟨2, ![n, 256]⟩ : Shape).Idx) : S1x256.Idx := ix2 (0 : Fin 1) (⟨(y 1).val, (y 1).isLt⟩ : Fin 256)

/-- Bias added, clamped below at zero: entry `y` from entry `y` of the rows and the bias entry under its column. -/
def clamp {n : ℕ} (a : (⟨2, ![n, 256]⟩ : Shape).Idx → Elt F .f32) (b : S1x256.Idx → Elt F .f32) :
    (⟨2, ![n, 256]⟩ : Shape).Idx → Elt F .f32 :=
  fun y => FloatOps.maximumf (FloatOps.addf (a y) (b (under y))) (Scalar.ofBits (F := F) .f32 0x00000000#32)

/-- The body's stored value, entry by entry: the loaded rows plus the bias row spread down the rows, clamped. -/
theorem payload_apply (x0 : Vec F S2000x256 .f32) (x1 : Vec F S1x256 .f32) (y : S2000x256.Idx) :
    k2_pay1 x0 x1 y = clamp (n := 2000) x0 x1 y := by
  unfold k2_pay1 clamp
  simp only [shapeCast_self]
  show FloatOps.maximumf (FloatOps.addf (x0 y) (broadcastTo S2000x256 x1 broadcasts_S1x256_S2000x256 y)) _ = _
  rw [broadcastTo_apply x1 broadcasts_S1x256_S2000x256 y (under y) (fun a => by
    match a with
    | ⟨0, _⟩ => rfl
    | ⟨1, _⟩ => rfl)]
  rfl

/-- The printed index maps over the grid: the row windows sit at block `(t, 0)`, the bias window at block `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the clamped sum of the two arrays as the kernel found them. -/
theorem flushed_eq (c : Dev nD) (t : Fin cfg2.N) :
    (dat2 V c).flushed 2 t = ((cfg2.win 2).blk t).view.read (Elt F) (clamp (n := 20000) (V c main_v74) (V c main_v75)) := by
  show (cfg2.win 2).cut (grid2.coords t) ((dat2 V c).after 2 t) = _
  rw [after2_2]
  unfold out2_2
  rw [View.canon_unit_zero hz]
  simp only [View.ld_unit_zero (S := S2000x256) hz, View.ld_unit_zero (S := S1x256) hz]
  obtain ⟨e0, e1, e2, e3, e4, e5⟩ := idx_facts t
  funext j
  refine (payload_apply (iblk2 V c 0 t) (iblk2 V c 1 t) j).trans ?_
  show FloatOps.maximumf (FloatOps.addf (V c main_v74 (((cfg2.win 0).blk t).view.emb j)) (V c main_v75 (((cfg2.win 1).blk t).view.emb (under (n := 2000) j)))) _
    = FloatOps.maximumf (FloatOps.addf (V c main_v74 (((cfg2.win 2).blk t).view.emb j)) (V c main_v75 (under (n := 20000) (((cfg2.win 2).blk t).view.emb j)))) _
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * (j 1).val = win2_2.index t (1 : Fin 2) * 256 + 1 * (j 1).val; omega
  have h1 : ((cfg2.win 1).blk t).view.emb (under (n := 2000) j) = under (n := 20000) (((cfg2.win 2).blk t).view.emb j) := by
    funext a; apply Fin.ext
    match a with
    | ⟨0, _⟩ => show win2_1.index t (0 : Fin 2) * 1 + 1 * 0 = 0; omega
    | ⟨1, _⟩ => show win2_1.index t (1 : Fin 2) * 256 + 1 * (j 1).val = win2_2.index t (1 : Fin 2) * 256 + 1 * (j 1).val; omega
  rw [h0, h1]

/-- An index of the output array is in point `t`'s block iff each coordinate is in the block's range on its axis. -/
theorem mem_blk (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v76).slice (win2_2.rect t)).set ↔ _
  rw [View.set_slice_whole, Rect.mem_set_unit]
  exact Iff.rfl

/-- Row `r` of the output is in the block of point `r / 2000`: the ten blocks cover the array. -/
theorem cover (i : S20000x256.Idx) : ∃ t : Fin cfg2.N, (cfg2.win 2).flush t = true ∧ i ∈ ((cfg2.win 2).blk t).view.set := by
  have hi0 : (i 0).val < 20000 := (i 0).isLt
  have hi1 : (i 1).val < 256 := (i 1).isLt
  have hlt : (i 0).val / 2000 < cfg2.N := by rw [show cfg2.N = 10 from N_2]; omega
  refine ⟨⟨(i 0).val / 2000, hlt⟩, flush2_2 _, ?_⟩
  rw [mem_blk]
  obtain ⟨e0, e1, e2, e3, e4, e5⟩ := idx_facts ⟨(i 0).val / 2000, hlt⟩
  have e4' : win2_2.index ⟨(i 0).val / 2000, hlt⟩ (0 : Fin 2) = (i 0).val / 2000 := e4
  intro a
  match a with
  | ⟨0, _⟩ => show win2_2.index _ (0 : Fin 2) * 2000 ≤ (i 0).val ∧ (i 0).val < win2_2.index _ (0 : Fin 2) * 2000 + 2000; rw [e4']; omega
  | ⟨1, _⟩ => show win2_2.index _ (1 : Fin 2) * 256 ≤ (i 1).val ∧ (i 1).val < win2_2.index _ (1 : Fin 2) * 256 + 256; rw [e5]; omega

/-- After the last point the output array is the clamped sum of the two arrays as the kernel found them. -/
theorem final (c : Dev nD) : (dat2 V c).arrAt 2 cfg2.N = clamp (n := 20000) (V c main_v74) (V c main_v75) :=
  (dat2 V c).arrAt_eq_of_cover 2 (clamp (n := 20000) (V c main_v74) (V c main_v75)) (fun t _ => flushed_eq V c t) cover

end Cert.KernelIdeal.BiasClamp

end
-- ==== Proof.Region1.lean ====
/-
  The second kernel: bias, clamp, then a row-blocked matrix product.

  The grid has ten points. Point `t` reads rows `2000 t … 2000 t + 1999` of the `[20000, 256]` array `a`, the whole
  `[1, 256]` row `b` and the whole `[256, 256]` array `w`; it forms `max (a + b, 0)` on its rows and writes the product of
  that block with `w` to the same rows of the output. Clamping is entry by entry and a row of a product depends on that
  row of the left factor only, so after the last point the output array is `max (a + b, 0) · w` of the three arrays as
  the kernel found them. Stated for any contents `V` of the buffers at the kernel's entry.
-/
import proofs.«161100_j18511309045924_1_alg».proof.Proof.Gen.KernelIdeal.Frame
import proofs.«161100_j18511309045924_1_alg».proof.Proof.LibMatProduct
import proofs.«161100_j18511309045924_1_alg».proof.Proof.Region2
import Idealize.ShloMosaic.Lib.Pipeline.Value

set_option maxRecDepth 16384

noncomputable section

namespace Cert.KernelIdeal.ClampProject

open Cert.KernelIdeal Cert.KernelIdeal.Gen Cert.MatProduct Cert.KernelIdeal.BiasClamp
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of the clamped sum of its first two loaded blocks with the third. -/
theorem payload_eq (x0 : Vec Ideal S2000x256 .f32) (x1 : Vec Ideal S1x256 .f32) (x2 : Vec Ideal S256x256 .f32) :
    k1_pay1 x0 x1 x2 = prod (M := 2000) (K := 256) (N := 256) (clamp (n := 2000) x0 x1) x2 := by
  have h : k2_pay1 x0 x1 = clamp (n := 2000) x0 x1 := funext (payload_apply x0 x1)
  rw [← h]
  unfold k1_pay1 k2_pay1
  exact matmul_zero_eq_prod (M := 2000) (K := 256) (N := 256) (φ₁ := .bf16) (φ₂ := .bf16) none _ x2

/-- The printed index maps over the grid: the row windows sit at block `(t, 0)`, the bias row's and the right factor's
    at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the product, with the right factor, of the clamped sum of the rows and the
    bias row, all as the kernel found them. -/
theorem flushed_eq (c : Dev nD) (t : Fin cfg1.N) :
    (dat1 V c).flushed 3 t = ((cfg1.win 3).blk t).view.read (Elt Ideal)
      (prod (M := 20000) (K := 256) (N := 256) (clamp (n := 20000) (V c main_v54) (V c main_v55)) (V c main_arg5)) := by
  show (cfg1.win 3).cut (grid1.coords t) ((dat1 V c).after 3 t) = _
  rw [after1_3]
  unfold out1_3
  rw [View.canon_unit_zero hz]
  simp only [View.ld_unit_zero (S := S2000x256) hz, View.ld_unit_zero (S := S1x256) hz, View.ld_unit_zero (S := S256x256) hz]
  obtain ⟨e0, e1, e2, e3, e4, e5, e6, e7⟩ := idx_facts t
  funext j
  refine (congrFun (payload_eq (iblk1 V c 0 t) (iblk1 V c 1 t) (iblk1 V c 2 t)) j).trans ?_
  show (∑ k : Fin 256,
        FloatOps.maximumf (FloatOps.addf (V c main_v54 (((cfg1.win 0).blk t).view.emb (ix2 (rowOf (M := 2000) (N := 256) j) k)))
            (V c main_v55 (((cfg1.win 1).blk t).view.emb (under (n := 2000) (ix2 (rowOf (M := 2000) (N := 256) j) k)))))
          (Scalar.ofBits (F := Ideal) .f32 0x00000000#32)
        * V c main_arg5 (((cfg1.win 2).blk t).view.emb (ix2 k (colOf (M := 2000) (N := 256) j))))
    = ∑ k : Fin 256,
        FloatOps.maximumf (FloatOps.addf (V c main_v54 (ix2 (rowOf (M := 20000) (N := 256) (((cfg1.win 3).blk t).view.emb j)) k))
            (V c main_v55 (under (n := 20000) (ix2 (rowOf (M := 20000) (N := 256) (((cfg1.win 3).blk t).view.emb j)) k))))
          (Scalar.ofBits (F := Ideal) .f32 0x00000000#32)
        * V c main_arg5 (ix2 k (colOf (M := 20000) (N := 256) (((cfg1.win 3).blk t).view.emb j)))
  refine Finset.sum_congr rfl fun k _ => ?_
  have h0 : ((cfg1.win 0).blk t).view.emb (ix2 (rowOf (M := 2000) (N := 256) j) k)
      = ix2 (rowOf (M := 20000) (N := 256) (((cfg1.win 3).blk t).view.emb j)) k := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 256 + 1 * k.val = k.val; omega
  have h1 : ((cfg1.win 1).blk t).view.emb (under (n := 2000) (ix2 (rowOf (M := 2000) (N := 256) j) k))
      = under (n := 20000) (ix2 (rowOf (M := 20000) (N := 256) (((cfg1.win 3).blk t).view.emb j)) k) := by
    funext a; apply Fin.ext
    match a with
    | ⟨0, _⟩ => show win1_1.index t (0 : Fin 2) * 1 + 1 * 0 = 0; omega
    | ⟨1, _⟩ => show win1_1.index t (1 : Fin 2) * 256 + 1 * k.val = k.val; omega
  have h2 : ((cfg1.win 2).blk t).view.emb (ix2 k (colOf (M := 2000) (N := 256) j))
      = ix2 k (colOf (M := 20000) (N := 256) (((cfg1.win 3).blk t).view.emb j)) := by
    funext a; apply Fin.ext
    match a with
    | ⟨0, _⟩ => show win1_2.index t (0 : Fin 2) * 256 + 1 * k.val = k.val; omega
    | ⟨1, _⟩ => show win1_2.index t (1 : Fin 2) * 256 + 1 * (j 1).val = win1_3.index t (1 : Fin 2) * 256 + 1 * (j 1).val; omega
  rw [h0, h1, h2]

/-- An index of the output array is in point `t`'s block iff each coordinate is in the block's range on its axis. -/
theorem mem_blk (t : Fin cfg1.N) (i : S20000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v56).slice (win1_3.rect t)).set ↔ _
  rw [View.set_slice_whole, Rect.mem_set_unit]
  exact Iff.rfl

/-- Row `r` of the output is in the block of point `r / 2000`: the ten blocks cover the array. -/
theorem cover (i : S20000x256.Idx) : ∃ t : Fin cfg1.N, (cfg1.win 3).flush t = true ∧ i ∈ ((cfg1.win 3).blk t).view.set := by
  have hi0 : (i 0).val < 20000 := (i 0).isLt
  have hi1 : (i 1).val < 256 := (i 1).isLt
  have hlt : (i 0).val / 2000 < cfg1.N := by rw [show cfg1.N = 10 from N_1]; omega
  refine ⟨⟨(i 0).val / 2000, hlt⟩, flush1_3 _, ?_⟩
  rw [mem_blk]
  obtain ⟨e0, e1, e2, e3, e4, e5, e6, e7⟩ := idx_facts ⟨(i 0).val / 2000, hlt⟩
  have e6' : win1_3.index ⟨(i 0).val / 2000, hlt⟩ (0 : Fin 2) = (i 0).val / 2000 := e6
  intro a
  match a with
  | ⟨0, _⟩ => show win1_3.index _ (0 : Fin 2) * 2000 ≤ (i 0).val ∧ (i 0).val < win1_3.index _ (0 : Fin 2) * 2000 + 2000; rw [e6']; omega
  | ⟨1, _⟩ => show win1_3.index _ (1 : Fin 2) * 256 ≤ (i 1).val ∧ (i 1).val < win1_3.index _ (1 : Fin 2) * 256 + 256; rw [e7]; omega

/-- After the last point the output array is the product, with the right factor, of the clamped sum of the rows and the
    bias row, all as the kernel found them. -/
theorem final (c : Dev nD) : (dat1 V c).arrAt 3 cfg1.N
    = prod (M := 20000) (K := 256) (N := 256) (clamp (n := 20000) (V c main_v54) (V c main_v55)) (V c main_arg5) :=
  (dat1 V c).arrAt_eq_of_cover 3 (prod (M := 20000) (K := 256) (N := 256) (clamp (n := 20000) (V c main_v54) (V c main_v55)) (V c main_arg5))
    (fun t _ => flushed_eq V c t) cover

end Cert.KernelIdeal.ClampProject

end
-- ==== Proof.Spec.lean ====
/-
  The network as one function of its nine arguments.

  Two graph-convolution layers, a mean over each graph's nodes, and a linear head. From the edge list come the source and
  destination endpoints (one self loop per node appended), the in-degrees `deg`, their inverse square roots `dinv`
  (zero where the degree is not positive) and, per edge, the coefficient `dinv src · dinv dst`. A layer takes node
  features `xw`, gathers the source's row for each edge, scales it by the edge's coefficient and adds it into the
  destination's row (`agg`); then a bias is added and the result clamped below at zero (`biasRelu`). The first layer's
  features are `x · W1`, the second's the first layer's output times `W2`. The head sums the node rows of each graph, divides
  by the graph's node count (at least one), multiplies by `w_fc` and adds `b_fc`.

  Every piece is written with the host operations the reference program itself applies, in its order, so that the
  reference's result is this function of its arguments by unfolding.
-/
import proofs.«161100_j18511309045924_1_alg».proof.Proof.Gen.ReferenceIdeal

noncomputable section

namespace Cert.Gcn

open Cert.ReferenceIdeal Cert.ReferenceIdeal.Gen Idealize.ShloMosaic

variable {F : FTy → Type} [FloatOps F]

/-- Source endpoints: the edge list's first row, then one self loop per node. -/
def src (e : IVec S2x320000 32) : IVec S340000 32 :=
  concatenate S340000 0 [⟨S320000, shapeCast S320000 (extractStridedSlice S1x320000 ![0, 0] e slices_S2x320000_S1x320000_0_0) shapeCasts_S1x320000_S320000⟩, ⟨S20000, iotaInDim S20000 32 0⟩] concatenates_S320000_S20000_S340000_d0

/-- Destination endpoints: the edge list's second row, then one self loop per node. -/
def dst (e : IVec S2x320000 32) : IVec S340000 32 :=
  concatenate S340000 0 [⟨S320000, shapeCast S320000 (extractStridedSlice S1x320000 ![1, 0] e slices_S2x320000_S1x320000_1_0) shapeCasts_S1x320000_S320000⟩, ⟨S20000, iotaInDim S20000 32 0⟩] concatenates_S320000_S20000_S340000_d0

/-- Node numbers as a column of start indices, a negative one counted from the end. -/
def wrap (v : IVec S340000 32) : IVec S340000x1 32 :=
  broadcastInDim S340000x1 ![0] bcast_S340000_S340000x1_0
    (select (cmpi .slt v (broadcastInDim S340000 ![] bcast_S_S340000 (constantI S_ 32 0#32)))
      (addi v (broadcastInDim S340000 ![] bcast_S_S340000 (constantI S_ 32 20000#32))) v)

/-- In-degrees: one added at each edge's destination. -/
def deg (d : IVec S340000 32) : FVec F S20000 .f32 :=
  Host.scatterAdd scatter_S20000_S340000x1_S340000_n_0_0_1 (broadcastInDim S20000 ![] bcast_S_S20000 (constant S_ .f32 0x00000000#32))
    (wrap d) (broadcastInDim S340000 ![] bcast_S_S340000 (constant S_ .f32 0x3F800000#32))

/-- Inverse square roots of the in-degrees, zero where the degree is not positive. -/
def dinv (d : IVec S340000 32) : FVec F S20000 .f32 :=
  select (cmpf (F := F) .ogt (deg d) (broadcastInDim S20000 ![] bcast_S_S20000 (constant S_ .f32 0x00000000#32)))
    (Host.rsqrt (deg d))
    (broadcastInDim S20000 ![] bcast_S_S20000 (id (constant S_ .f32 0x00000000#32)))

/-- Per edge, the product of a node vector's entries at the two endpoints, as a column. -/
def coefOf (v : FVec F S20000 .f32) (s d : IVec S340000 32) : FVec F S340000x1 .f32 :=
  broadcastInDim S340000x1 ![0] bcast_S340000_S340000x1_0
    (mulf (Host.gather gather_S20000_S340000x1_S340000_n_0_n_n_0_1_1 v (wrap s))
      (Host.gather gather_S20000_S340000x1_S340000_n_0_n_n_0_1_1 v (wrap d)))

/-- Per edge, the product of the two endpoints' inverse square roots, as a column. -/
def coefCol (s d : IVec S340000 32) : FVec F S340000x1 .f32 := coefOf (dinv (F := F) d) s d

/-- One round of message passing: each edge's source row, scaled by the edge's coefficient, added into its destination row. -/
def agg (xw : FVec F S20000x256 .f32) (s d : IVec S340000 32) : FVec F S20000x256 .f32 :=
  Host.scatterAdd scatter_S20000x256_S340000x1_S340000x256_1_0_0_1
    (broadcastInDim S20000x256 ![] bcast_S_S20000x256 (constant S_ .f32 0x00000000#32))
    (wrap d)
    (mulf (Host.gather gather_S20000x256_S340000x1_S340000x256_1_0_n_n_0_1_1256 xw (wrap s))
      (broadcastInDim S340000x256 ![0, 1] bcast_S340000x1_S340000x256_0_1 (coefCol (F := F) s d)))

/-- A bias vector added to every row, then clamped below at zero. -/
def biasRelu (a : FVec F S20000x256 .f32) (b : FVec F S256 .f32) : FVec F S20000x256 .f32 :=
  maximumf (addf a (broadcastInDim S20000x256 ![0, 1] bcast_S1x256_S20000x256_0_1 (broadcastInDim S1x256 ![1] bcast_S256_S1x256_1 b)))
    (broadcastInDim S20000x256 ![] bcast_S_S20000x256 (constant S_ .f32 0x00000000#32))

/-- The mean of each graph's node rows, times `w_fc`, plus `b_fc`. -/
def head (h : FVec F S20000x256 .f32) (batch : IVec S20000 32) (wfc : FVec F S256x1 .f32) (bfc : FVec F S1 .f32) : FVec F S128 .f32 :=
  shapeCast S128 (addf (Host.dotGeneral dot_S128x256_S256x1_S128x1_1_0_0_1_n_n none
      (Host.divf (Host.scatterAdd scatter_S128x256_S20000x1_S20000x256_1_0_0_1 (broadcastInDim S128x256 ![] bcast_S_S128x256 (constant S_ .f32 0x00000000#32)) (broadcastInDim S20000x1 ![0] bcast_S20000_S20000x1_0 batch) h)
        (broadcastInDim S128x256 ![0, 1] bcast_S128x1_S128x256_0_1
          (maximumf (Host.scatterAdd scatter_S128x1_S20000x1_S20000x1_1_0_0_1 (broadcastInDim S128x1 ![] bcast_S_S128x1 (constant S_ .f32 0x00000000#32)) (broadcastInDim S20000x1 ![0] bcast_S20000_S20000x1_0 batch) (broadcastInDim S20000x1 ![] bcast_S_S20000x1 (constant S_ .f32 0x3F800000#32)))
            (broadcastInDim S128x1 ![] bcast_S_S128x1 (constant S_ .f32 0x3F800000#32)))))
      wfc)
    (broadcastInDim S128x1 ![0, 1] bcast_S1x1_S128x1_0_1 (broadcastInDim S1x1 ![1] bcast_S1_S1x1_1 bfc))) shapeCasts_S128x1_S128

/-- The whole network, its two feature transforms as the host's `dot_general`. -/
def whole (x : FVec F S20000x512 .f32) (e : IVec S2x320000 32) (batch : IVec S20000 32) (W1 : FVec F S512x256 .f32) (b1 : FVec F S256 .f32)
    (W2 : FVec F S256x256 .f32) (b2 : FVec F S256 .f32) (wfc : FVec F S256x1 .f32) (bfc : FVec F S1 .f32) : FVec F S128 .f32 :=
  head (biasRelu (agg (Host.dotGeneral dot_S20000x256_S256x256_S20000x256_1_0_0_1_n_n none
      (biasRelu (agg (Host.dotGeneral dot_S20000x512_S512x256_S20000x256_1_0_0_1_n_n none x W1) (src e) (dst e)) b1) W2) (src e) (dst e)) b2)
    batch wfc bfc

end Cert.Gcn

end
-- ==== Proof.KernelValue.lean ====
/-
  The idealized kernel program's result as the network function of its arguments.

  The program's buffer contents are followed through its seven segments. Before the first kernel the host computes, from
  the edge list, the two endpoint vectors and the per-edge coefficient column. The first kernel leaves `x · W1`. The host then
  gathers, scales and scatter-adds it (`agg`) and regards the first bias as a row; the second kernel leaves
  `max (agg + b1, 0) · W2`. The host aggregates again and regards the second bias as a row; the third kernel leaves
  `max (agg + b2, 0)`. The host's last stretch is the pooling head. No segment writes an argument, the endpoint vectors or
  the coefficient column once they are computed, so each is carried unchanged to where it is read.
-/
import proofs.«161100_j18511309045924_1_alg».proof.Proof.Gen.KernelIdeal.Frame
import proofs.«161100_j18511309045924_1_alg».proof.Proof.Region0
import proofs.«161100_j18511309045924_1_alg».proof.Proof.Region1
import proofs.«161100_j18511309045924_1_alg».proof.Proof.Region2
import proofs.«161100_j18511309045924_1_alg».proof.Proof.Spec
import Idealize.ShloMosaic.Lib.StableHlo.Run

set_option maxRecDepth 16384
set_option maxHeartbeats 4000000

noncomputable section

namespace Cert.KernelIdeal.Chain

open Cert.KernelIdeal Cert.KernelIdeal.Gen Cert.Gcn Cert.MatProduct Cert.KernelIdeal.BiasClamp
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first kernel -/

/-- The source endpoints. -/
theorem entry_src : W3 m ρ c (Proc.devRef .tc main_v3) = src (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  rfl

/-- The destination endpoints. -/
theorem entry_dst : W3 m ρ c (Proc.devRef .tc main_v6) = dst (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp
  rfl

/-! The coefficient column, stretch by stretch: the degrees and their comparison with zero and inverse square roots in
    the first stretch, the choice between them (an outlined function's three operations) in the second, the two gathers
    and their product in the third. -/

theorem s0_src : W1 m ρ c (Proc.devRef .tc main_v3) = src (m ((c : Thread nD τ).loc main_arg1)) := by
  show StableHlo.after hostOps0 (W0 m ρ c) (Proc.devRef .tc main_v3) = _
  dsimp only [hostOps0]
  after_results_simp
  rfl

theorem s0_dst : W1 m ρ c (Proc.devRef .tc main_v6) = dst (m ((c : Thread nD τ).loc main_arg1)) := by
  show StableHlo.after hostOps0 (W0 m ρ c) (Proc.devRef .tc main_v6) = _
  dsimp only [hostOps0]
  after_results_simp
  rfl

/-- Where the in-degree is positive. -/
theorem s0_pos : W1 m ρ c (Proc.devRef .tc main_v17)
    = cmpf (F := Ideal) .ogt (deg (F := Ideal) (dst (m ((c : Thread nD τ).loc main_arg1)))) (broadcastInDim S20000 ![] bcast_S_S20000 (constant S_ .f32 0x00000000#32)) := by
  show StableHlo.after hostOps0 (W0 m ρ c) (Proc.devRef .tc main_v17) = _
  dsimp only [hostOps0]
  after_results_simp
  unfold deg wrap dst
  rfl

/-- The in-degrees' inverse square roots. -/
theorem s0_rsqrt : W1 m ρ c (Proc.devRef .tc main_v18) = Host.rsqrt (deg (F := Ideal) (dst (m ((c : Thread nD τ).loc main_arg1)))) := by
  show StableHlo.after hostOps0 (W0 m ρ c) (Proc.devRef .tc main_v18) = _
  dsimp only [hostOps0]
  after_results_simp
  unfold deg wrap dst
  rfl

theorem s0_zero : W1 m ρ c (Proc.devRef .tc main_cst_3) = constant (F := Ideal) S_ .f32 0x00000000#32 := by
  show StableHlo.after hostOps0 (W0 m ρ c) (Proc.devRef .tc main_cst_3) = _
  dsimp only [hostOps0]
  after_results_simp

/-- The outlined choice, from any contents: where the mask holds the first vector's entry, elsewhere the scalar's. -/
theorem where_of (V : Valuation τ sig (Elt Ideal)) :
    StableHlo.after hostOps0_1 V (Proc.devRef .tc main_v19)
      = select (V (Proc.devRef .tc main_v17) : IVec S20000 1) (V (Proc.devRef .tc main_v18) : FVec Ideal S20000 .f32)
          (broadcastInDim S20000 ![] bcast_S_S20000 (id (V (Proc.devRef .tc main_cst_3) : FVec Ideal S_ .f32))) := by
  dsimp only [hostOps0_1]
  after_results_simp
  rfl

/-- The outlined function writes neither endpoint vector. -/
theorem where_keeps_src (V : Valuation τ sig (Elt Ideal)) :
    StableHlo.after hostOps0_1 V (Proc.devRef .tc main_v3) = V (Proc.devRef .tc main_v3) := by
  dsimp only [hostOps0_1]
  after_results_simp
theorem where_keeps_dst (V : Valuation τ sig (Elt Ideal)) :
    StableHlo.after hostOps0_1 V (Proc.devRef .tc main_v6) = V (Proc.devRef .tc main_v6) := by
  dsimp only [hostOps0_1]
  after_results_simp

/-- The inverse square roots where the degree is positive, zero elsewhere. -/
theorem s1_dinv : W2 m ρ c (Proc.devRef .tc main_v19) = dinv (F := Ideal) (dst (m ((c : Thread nD τ).loc main_arg1))) := by
  refine (where_of (W1 m ρ c)).trans ?_
  rw [s0_pos m ρ c, s0_rsqrt m ρ c, s0_zero m ρ c]
  rfl

theorem s1_src : W2 m ρ c (Proc.devRef .tc main_v3) = src (m ((c : Thread nD τ).loc main_arg1)) := (where_keeps_src (W1 m ρ c)).trans (s0_src m ρ c)
theorem s1_dst : W2 m ρ c (Proc.devRef .tc main_v6) = dst (m ((c : Thread nD τ).loc main_arg1)) := (where_keeps_dst (W1 m ρ c)).trans (s0_dst m ρ c)

/-- The third stretch, from any contents: the two gathers of the node vector at the wrapped endpoints, multiplied. -/
theorem coef_of (V : Valuation τ sig (Elt Ideal)) :
    StableHlo.after hostOps0_2 V (Proc.devRef .tc main_v35)
      = coefOf (F := Ideal) (V (Proc.devRef .tc main_v19)) (V (Proc.devRef .tc main_v3)) (V (Proc.devRef .tc main_v6)) := by
  dsimp only [hostOps0_2]
  after_results_simp
  rfl

/-- The per-edge coefficient column. -/
theorem entry_coef : W3 m ρ c (Proc.devRef .tc main_v35) = coefCol (F := Ideal) (src (m ((c : Thread nD τ).loc main_arg1))) (dst (m ((c : Thread nD τ).loc main_arg1))) := by
  refine (coef_of (W2 m ρ c)).trans ?_
  rw [s1_dinv m ρ c, s1_src m ρ c, s1_dst m ρ c]
  rfl

/-- An argument is as launched when the first kernel is entered. -/
theorem entry_arg (a : Ref sig .tc)
    (h : StableHlo.after hostOps0_2 (StableHlo.after hostOps0_1 (StableHlo.after hostOps0 (W0 m ρ c))) (Proc.devRef .tc a) = W0 m ρ c (Proc.devRef .tc a)) :
    W3 m ρ c (Proc.devRef .tc a) = m ((c : Thread nD τ).loc a) := h

theorem entry_arg0 : W3 m ρ c (Proc.devRef .tc main_arg0) = (m ((c : Thread nD τ).loc main_arg0)) :=
  entry_arg m ρ c main_arg0 (by dsimp only [hostOps0, hostOps0_1, hostOps0_2]; after_results_simp)
theorem entry_arg2 : W3 m ρ c (Proc.devRef .tc main_arg2) = (m ((c : Thread nD τ).loc main_arg2)) :=
  entry_arg m ρ c main_arg2 (by dsimp only [hostOps0, hostOps0_1, hostOps0_2]; after_results_simp)
theorem entry_arg3 : W3 m ρ c (Proc.devRef .tc main_arg3) = (m ((c : Thread nD τ).loc main_arg3)) :=
  entry_arg m ρ c main_arg3 (by dsimp only [hostOps0, hostOps0_1, hostOps0_2]; after_results_simp)
theorem entry_arg4 : W3 m ρ c (Proc.devRef .tc main_arg4) = (m ((c : Thread nD τ).loc main_arg4)) :=
  entry_arg m ρ c main_arg4 (by dsimp only [hostOps0, hostOps0_1, hostOps0_2]; after_results_simp)
theorem entry_arg5 : W3 m ρ c (Proc.devRef .tc main_arg5) = (m ((c : Thread nD τ).loc main_arg5)) :=
  entry_arg m ρ c main_arg5 (by dsimp only [hostOps0, hostOps0_1, hostOps0_2]; after_results_simp)
theorem entry_arg6 : W3 m ρ c (Proc.devRef .tc main_arg6) = (m ((c : Thread nD τ).loc main_arg6)) :=
  entry_arg m ρ c main_arg6 (by dsimp only [hostOps0, hostOps0_1, hostOps0_2]; after_results_simp)
theorem entry_arg7 : W3 m ρ c (Proc.devRef .tc main_arg7) = (m ((c : Thread nD τ).loc main_arg7)) :=
  entry_arg m ρ c main_arg7 (by dsimp only [hostOps0, hostOps0_1, hostOps0_2]; after_results_simp)
theorem entry_arg8 : W3 m ρ c (Proc.devRef .tc main_arg8) = (m ((c : Thread nD τ).loc main_arg8)) :=
  entry_arg m ρ c main_arg8 (by dsimp only [hostOps0, hostOps0_1, hostOps0_2]; after_results_simp)

/-! ## After the first kernel -/

/-- The first kernel leaves the product of the node features and the first weights. -/
theorem feat1 : W4 m ρ c (Proc.devRef .tc main_v36)
    = prod (M := 20000) (K := 512) (N := 256) (m ((c : Thread nD τ).loc main_arg0)) (m ((c : Thread nD τ).loc main_arg3)) := by
  have h : (dat0 (V3 m ρ) c).arrAt 2 cfg0.N
      = prod (M := 20000) (K := 512) (N := 256) (W3 m ρ c (Proc.devRef .tc main_arg0)) (W3 m ρ c (Proc.devRef .tc main_arg3)) :=
    Cert.KernelIdeal.Project.final (V3 m ρ) c
  rw [entry_arg0 m ρ c, entry_arg3 m ρ c] at h
  exact (W4_arr m ρ c 2).trans h

theorem at4_src : W4 m ρ c (Proc.devRef .tc main_v3) = src (m ((c : Thread nD τ).loc main_arg1)) := (W4_of_ne m ρ c main_v3 (by decide)).trans (entry_src m ρ c)
theorem at4_dst : W4 m ρ c (Proc.devRef .tc main_v6) = dst (m ((c : Thread nD τ).loc main_arg1)) := (W4_of_ne m ρ c main_v6 (by decide)).trans (entry_dst m ρ c)
theorem at4_coef : W4 m ρ c (Proc.devRef .tc main_v35) = coefCol (F := Ideal) (src (m ((c : Thread nD τ).loc main_arg1))) (dst (m ((c : Thread nD τ).loc main_arg1))) :=
  (W4_of_ne m ρ c main_v35 (by decide)).trans (entry_coef m ρ c)
theorem at4_arg2 : W4 m ρ c (Proc.devRef .tc main_arg2) = (m ((c : Thread nD τ).loc main_arg2)) := (W4_of_ne m ρ c main_arg2 (by decide)).trans (entry_arg2 m ρ c)
theorem at4_arg4 : W4 m ρ c (Proc.devRef .tc main_arg4) = (m ((c : Thread nD τ).loc main_arg4)) := (W4_of_ne m ρ c main_arg4 (by decide)).trans (entry_arg4 m ρ c)
theorem at4_arg5 : W4 m ρ c (Proc.devRef .tc main_arg5) = (m ((c : Thread nD τ).loc main_arg5)) := (W4_of_ne m ρ c main_arg5 (by decide)).trans (entry_arg5 m ρ c)
theorem at4_arg6 : W4 m ρ c (Proc.devRef .tc main_arg6) = (m ((c : Thread nD τ).loc main_arg6)) := (W4_of_ne m ρ c main_arg6 (by decide)).trans (entry_arg6 m ρ c)
theorem at4_arg7 : W4 m ρ c (Proc.devRef .tc main_arg7) = (m ((c : Thread nD τ).loc main_arg7)) := (W4_of_ne m ρ c main_arg7 (by decide)).trans (entry_arg7 m ρ c)
theorem at4_arg8 : W4 m ρ c (Proc.devRef .tc main_arg8) = (m ((c : Thread nD τ).loc main_arg8)) := (W4_of_ne m ρ c main_arg8 (by decide)).trans (entry_arg8 m ρ c)

/-! ## Before the second kernel -/

/-- The first layer's aggregate. -/
abbrev agg1 : FVec Ideal Cert.ReferenceIdeal.S20000x256 .f32 :=
  agg (F := Ideal) (prod (M := 20000) (K := 512) (N := 256) (m ((c : Thread nD τ).loc main_arg0)) (m ((c : Thread nD τ).loc main_arg3))) (src (m ((c : Thread nD τ).loc main_arg1))) (dst (m ((c : Thread nD τ).loc main_arg1)))

theorem at5_agg : W5 m ρ c (Proc.devRef .tc main_v54) = agg1 m c := by
  show StableHlo.after hostOps1 (W4 m ρ c) (Proc.devRef .tc main_v54) = _
  dsimp only [hostOps1]
  after_results_simp
  rw [feat1 m ρ c, at4_src m ρ c, at4_dst m ρ c, at4_coef m ρ c]
  rfl

theorem at5_bias : W5 m ρ c (Proc.devRef .tc main_v55) = shapeCast S1x256 (m ((c : Thread nD τ).loc main_arg4)) shapeCasts_S256_S1x256 := by
  show StableHlo.after hostOps1 (W4 m ρ c) (Proc.devRef .tc main_v55) = _
  dsimp only [hostOps1]
  after_results_simp
  rw [at4_arg4 m ρ c]
  rfl

/-- What the stretch before the second kernel does not write. -/
theorem keep5 (a : Ref sig .tc) (h : StableHlo.after hostOps1 (W4 m ρ c) (Proc.devRef .tc a) = W4 m ρ c (Proc.devRef .tc a)) :
    W5 m ρ c (Proc.devRef .tc a) = W4 m ρ c (Proc.devRef .tc a) := h

theorem at5_src : W5 m ρ c (Proc.devRef .tc main_v3) = src (m ((c : Thread nD τ).loc main_arg1)) :=
  (keep5 m ρ c main_v3 (by dsimp only [hostOps1]; after_results_simp)).trans (at4_src m ρ c)
theorem at5_dst : W5 m ρ c (Proc.devRef .tc main_v6) = dst (m ((c : Thread nD τ).loc main_arg1)) :=
  (keep5 m ρ c main_v6 (by dsimp only [hostOps1]; after_results_simp)).trans (at4_dst m ρ c)
theorem at5_coef : W5 m ρ c (Proc.devRef .tc main_v35) = coefCol (F := Ideal) (src (m ((c : Thread nD τ).loc main_arg1))) (dst (m ((c : Thread nD τ).loc main_arg1))) :=
  (keep5 m ρ c main_v35 (by dsimp only [hostOps1]; after_results_simp)).trans (at4_coef m ρ c)
theorem at5_arg2 : W5 m ρ c (Proc.devRef .tc main_arg2) = (m ((c : Thread nD τ).loc main_arg2)) :=
  (keep5 m ρ c main_arg2 (by dsimp only [hostOps1]; after_results_simp)).trans (at4_arg2 m ρ c)
theorem at5_arg5 : W5 m ρ c (Proc.devRef .tc main_arg5) = (m ((c : Thread nD τ).loc main_arg5)) :=
  (keep5 m ρ c main_arg5 (by dsimp only [hostOps1]; after_results_simp)).trans (at4_arg5 m ρ c)
theorem at5_arg6 : W5 m ρ c (Proc.devRef .tc main_arg6) = (m ((c : Thread nD τ).loc main_arg6)) :=
  (keep5 m ρ c main_arg6 (by dsimp only [hostOps1]; after_results_simp)).trans (at4_arg6 m ρ c)
theorem at5_arg7 : W5 m ρ c (Proc.devRef .tc main_arg7) = (m ((c : Thread nD τ).loc main_arg7)) :=
  (keep5 m ρ c main_arg7 (by dsimp only [hostOps1]; after_results_simp)).trans (at4_arg7 m ρ c)
theorem at5_arg8 : W5 m ρ c (Proc.devRef .tc main_arg8) = (m ((c : Thread nD τ).loc main_arg8)) :=
  (keep5 m ρ c main_arg8 (by dsimp only [hostOps1]; after_results_simp)).trans (at4_arg8 m ρ c)

/-! ## After the second kernel -/

/-- The second layer's features. -/
abbrev feat2v : Cert.ReferenceIdeal.S20000x256.Idx → EReal :=
  prod (M := 20000) (K := 256) (N := 256) (clamp (n := 20000) (agg1 m c) (shapeCast S1x256 (m ((c : Thread nD τ).loc main_arg4)) shapeCasts_S256_S1x256)) (m ((c : Thread nD τ).loc main_arg5))

theorem feat2 : W6 m ρ c (Proc.devRef .tc main_v56) = feat2v m c := by
  have h : (dat1 (V5 m ρ) c).arrAt 3 cfg1.N
      = prod (M := 20000) (K := 256) (N := 256) (clamp (n := 20000) (W5 m ρ c (Proc.devRef .tc main_v54)) (W5 m ρ c (Proc.devRef .tc main_v55)))
          (W5 m ρ c (Proc.devRef .tc main_arg5)) :=
    Cert.KernelIdeal.ClampProject.final (V5 m ρ) c
  rw [at5_agg m ρ c, at5_bias m ρ c, at5_arg5 m ρ c] at h
  exact (W6_arr m ρ c 3).trans h

theorem at6_src : W6 m ρ c (Proc.devRef .tc main_v3) = src (m ((c : Thread nD τ).loc main_arg1)) := (W6_of_ne m ρ c main_v3 (by decide)).trans (at5_src m ρ c)
theorem at6_dst : W6 m ρ c (Proc.devRef .tc main_v6) = dst (m ((c : Thread nD τ).loc main_arg1)) := (W6_of_ne m ρ c main_v6 (by decide)).trans (at5_dst m ρ c)
theorem at6_coef : W6 m ρ c (Proc.devRef .tc main_v35) = coefCol (F := Ideal) (src (m ((c : Thread nD τ).loc main_arg1))) (dst (m ((c : Thread nD τ).loc main_arg1))) :=
  (W6_of_ne m ρ c main_v35 (by decide)).trans (at5_coef m ρ c)
theorem at6_arg2 : W6 m ρ c (Proc.devRef .tc main_arg2) = (m ((c : Thread nD τ).loc main_arg2)) := (W6_of_ne m ρ c main_arg2 (by decide)).trans (at5_arg2 m ρ c)
theorem at6_arg6 : W6 m ρ c (Proc.devRef .tc main_arg6) = (m ((c : Thread nD τ).loc main_arg6)) := (W6_of_ne m ρ c main_arg6 (by decide)).trans (at5_arg6 m ρ c)
theorem at6_arg7 : W6 m ρ c (Proc.devRef .tc main_arg7) = (m ((c : Thread nD τ).loc main_arg7)) := (W6_of_ne m ρ c main_arg7 (by decide)).trans (at5_arg7 m ρ c)
theorem at6_arg8 : W6 m ρ c (Proc.devRef .tc main_arg8) = (m ((c : Thread nD τ).loc main_arg8)) := (W6_of_ne m ρ c main_arg8 (by decide)).trans (at5_arg8 m ρ c)

/-! ## Before the third kernel -/

/-- The second layer's aggregate. -/
abbrev agg2 : FVec Ideal Cert.ReferenceIdeal.S20000x256 .f32 := agg (F := Ideal) (feat2v m c) (src (m ((c : Thread nD τ).loc main_arg1))) (dst (m ((c : Thread nD τ).loc main_arg1)))

theorem at7_agg : W7 m ρ c (Proc.devRef .tc main_v74) = agg2 m c := by
  show StableHlo.after hostOps2 (W6 m ρ c) (Proc.devRef .tc main_v74) = _
  dsimp only [hostOps2]
  after_results_simp
  rw [feat2 m ρ c, at6_src m ρ c, at6_dst m ρ c, at6_coef m ρ c]
  rfl

theorem at7_bias : W7 m ρ c (Proc.devRef .tc main_v75) = shapeCast S1x256 (m ((c : Thread nD τ).loc main_arg6)) shapeCasts_S256_S1x256 := by
  show StableHlo.after hostOps2 (W6 m ρ c) (Proc.devRef .tc main_v75) = _
  dsimp only [hostOps2]
  after_results_simp
  rw [at6_arg6 m ρ c]
  rfl

/-- What the stretch before the third kernel does not write. -/
theorem keep7 (a : Ref sig .tc) (h : StableHlo.after hostOps2 (W6 m ρ c) (Proc.devRef .tc a) = W6 m ρ c (Proc.devRef .tc a)) :
    W7 m ρ c (Proc.devRef .tc a) = W6 m ρ c (Proc.devRef .tc a) := h

theorem at7_arg2 : W7 m ρ c (Proc.devRef .tc main_arg2) = (m ((c : Thread nD τ).loc main_arg2)) :=
  (keep7 m ρ c main_arg2 (by dsimp only [hostOps2]; after_results_simp)).trans (at6_arg2 m ρ c)
theorem at7_arg7 : W7 m ρ c (Proc.devRef .tc main_arg7) = (m ((c : Thread nD τ).loc main_arg7)) :=
  (keep7 m ρ c main_arg7 (by dsimp only [hostOps2]; after_results_simp)).trans (at6_arg7 m ρ c)
theorem at7_arg8 : W7 m ρ c (Proc.devRef .tc main_arg8) = (m ((c : Thread nD τ).loc main_arg8)) :=
  (keep7 m ρ c main_arg8 (by dsimp only [hostOps2]; after_results_simp)).trans (at6_arg8 m ρ c)

/-! ## After the third kernel -/

/-- The second layer's output. -/
abbrev out2v : Cert.ReferenceIdeal.S20000x256.Idx → EReal :=
  clamp (n := 20000) (agg2 m c) (shapeCast S1x256 (m ((c : Thread nD τ).loc main_arg6)) shapeCasts_S256_S1x256)

theorem out2 : W8 m ρ c (Proc.devRef .tc main_v76) = out2v m c := by
  have h : (dat2 (V7 m ρ) c).arrAt 2 cfg2.N
      = clamp (n := 20000) (W7 m ρ c (Proc.devRef .tc main_v74)) (W7 m ρ c (Proc.devRef .tc main_v75)) :=
    Cert.KernelIdeal.BiasClamp.final (V7 m ρ) c
  rw [at7_agg m ρ c, at7_bias m ρ c] at h
  exact (W8_arr m ρ c 2).trans h

theorem at8_arg2 : W8 m ρ c (Proc.devRef .tc main_arg2) = (m ((c : Thread nD τ).loc main_arg2)) := (W8_of_ne m ρ c main_arg2 (by decide)).trans (at7_arg2 m ρ c)
theorem at8_arg7 : W8 m ρ c (Proc.devRef .tc main_arg7) = (m ((c : Thread nD τ).loc main_arg7)) := (W8_of_ne m ρ c main_arg7 (by decide)).trans (at7_arg7 m ρ c)
theorem at8_arg8 : W8 m ρ c (Proc.devRef .tc main_arg8) = (m ((c : Thread nD τ).loc main_arg8)) := (W8_of_ne m ρ c main_arg8 (by decide)).trans (at7_arg8 m ρ c)

/-! ## The result -/

/-- The program's result is the pooling head of the second layer's output. -/
theorem result : W9 m ρ c (Proc.devRef .tc main_v92)
    = head (F := Ideal) (out2v m c) (m ((c : Thread nD τ).loc main_arg2)) (m ((c : Thread nD τ).loc main_arg7)) (m ((c : Thread nD τ).loc main_arg8)) := by
  show StableHlo.after hostOps3 (W8 m ρ c) (Proc.devRef .tc main_v92) = _
  dsimp only [hostOps3]
  after_results_simp
  rw [out2 m ρ c, at8_arg2 m ρ c, at8_arg7 m ρ c, at8_arg8 m ρ c]
  rfl

end Cert.KernelIdeal.Chain

end
-- ==== Proof.RefValue.lean ====
/-
  The reference's result is the network function of its arguments.

  The reference program's run ends with its result buffer at one long composed term of the arguments' launch contents.
  That term is the network function `Cert.Gcn.whole`, piece for piece: the same host operations in the same order (the
  second layer's edge coefficients are computed again from the same edge list, and are the same term).
-/
import proofs.«161100_j18511309045924_1_alg».proof.Proof.RefRun
import proofs.«161100_j18511309045924_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxHeartbeats 4000000 in
/-- The run's result term is the network function of the launch contents of the nine arguments. -/
theorem result_eq (m : (ℓ : Loc nD τ sig) → Buf (Elt F) ℓ) (c : Dev nD) :
    Cert.ReferenceIdeal.ValueP.res_main_v124 m c
      = Cert.Gcn.whole (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.ValueP.res_main_v124 Cert.Gcn.whole Cert.Gcn.head Cert.Gcn.biasRelu Cert.Gcn.agg Cert.Gcn.coefCol Cert.Gcn.coefOf Cert.Gcn.dinv Cert.Gcn.deg Cert.Gcn.wrap Cert.Gcn.src Cert.Gcn.dst
  rfl

end Cert.ReferenceIdeal.RefValue

end
-- ==== Proof.Bridge.lean ====
/-
  The reference's operations and the kernels' whole-array functions are the same functions.

  On the extended reals the host's `dot_general` of a plain product is `prod`; and adding a bias vector spread over the
  rows and clamping below at zero — the reference spreads the `[256]` vector to `[1, 256]` and then down the rows — is the
  kernels' `clamp` against that vector regarded as a `[1, 256]` row.
-/
import proofs.«161100_j18511309045924_1_alg».proof.Proof.Spec
import proofs.«161100_j18511309045924_1_alg».proof.Proof.LibMatProduct
import proofs.«161100_j18511309045924_1_alg».proof.Proof.Region2
import Idealize.ShloMosaic.Lib.Pipeline.Value

noncomputable section

namespace Cert.Gcn

open Cert.ReferenceIdeal Cert.ReferenceIdeal.Gen Cert.MatProduct Idealize.ShloMosaic Idealize.ShloMosaic.ValueIdx

/-- The first layer's feature transform on the host is the product. -/
theorem dot1_eq (x : FVec Ideal S20000x512 .f32) (w : FVec Ideal S512x256 .f32) :
    Host.dotGeneral dot_S20000x512_S512x256_S20000x256_1_0_0_1_n_n none x w = prod (M := 20000) (K := 512) (N := 256) x w :=
  dotGeneral_eq_prod (M := 20000) (K := 512) (N := 256) none .single x w

/-- The second layer's feature transform on the host is the product. -/
theorem dot2_eq (x : FVec Ideal S20000x256 .f32) (w : FVec Ideal S256x256 .f32) :
    Host.dotGeneral dot_S20000x256_S256x256_S20000x256_1_0_0_1_n_n none x w = prod (M := 20000) (K := 256) (N := 256) x w :=
  dotGeneral_eq_prod (M := 20000) (K := 256) (N := 256) none .single x w

variable {F : FTy → Type} [FloatOps F]

/-- The bias vector spread to a row and down the rows, added and clamped, is `clamp` against the vector as a row: both read
    the bias entry under the index's column. -/
theorem biasRelu_eq (a : FVec F S20000x256 .f32) (b : FVec F S256 .f32) (h : S256.ShapeCasts S1x256) :
    biasRelu a b = Cert.KernelIdeal.BiasClamp.clamp (n := 20000) a (shapeCast S1x256 b h) := by
  funext y
  unfold biasRelu Cert.KernelIdeal.BiasClamp.clamp
  show FloatOps.maximumf (FloatOps.addf (a y) (broadcastInDim S20000x256 ![0, 1] bcast_S1x256_S20000x256_0_1 (broadcastInDim S1x256 ![1] bcast_S256_S1x256_1 b) y))
      (broadcastInDim S20000x256 ![] bcast_S_S20000x256 (constant (F := F) S_ .f32 0x00000000#32) y)
    = FloatOps.maximumf (FloatOps.addf (a y) (shapeCast S1x256 b h (Cert.KernelIdeal.BiasClamp.under (n := 20000) y))) (Scalar.ofBits (F := F) .f32 0x00000000#32)
  rw [broadcastInDim_apply ![0, 1] bcast_S1x256_S20000x256_0_1 _ y (Cert.KernelIdeal.BiasClamp.under (n := 20000) y) (fun a => by
        match a with
        | ⟨0, _⟩ => rfl
        | ⟨1, _⟩ => rfl),
    broadcastInDim_apply ![1] bcast_S256_S1x256_1 b (Cert.KernelIdeal.BiasClamp.under (n := 20000) y)
      (fun a => Cert.KernelIdeal.BiasClamp.under (n := 20000) y a.succ) (fun a => by
        match a with
        | ⟨0, _⟩ => rfl),
    shapeCast_addUnit_apply ![256] b h (Cert.KernelIdeal.BiasClamp.under (n := 20000) y)]
  rfl

/-- The network function with each feature transform as `prod` and each bias-and-clamp as `clamp` against the bias as a row:
    the form the kernel program's buffers are followed to. -/
theorem whole_eq (x : FVec Ideal S20000x512 .f32) (e : IVec S2x320000 32) (batch : IVec S20000 32) (W1 : FVec Ideal S512x256 .f32)
    (b1 : FVec Ideal S256 .f32) (W2 : FVec Ideal S256x256 .f32) (b2 : FVec Ideal S256 .f32) (wfc : FVec Ideal S256x1 .f32)
    (bfc : FVec Ideal S1 .f32) (h : S256.ShapeCasts S1x256) :
    whole (F := Ideal) x e batch W1 b1 W2 b2 wfc bfc
      = head (F := Ideal)
          (Cert.KernelIdeal.BiasClamp.clamp (F := Ideal) (n := 20000)
            (agg (F := Ideal)
              (prod (M := 20000) (K := 256) (N := 256)
                (Cert.KernelIdeal.BiasClamp.clamp (F := Ideal) (n := 20000)
                  (agg (F := Ideal) (prod (M := 20000) (K := 512) (N := 256) x W1) (src e) (dst e)) (shapeCast S1x256 b1 h)) W2)
              (src e) (dst e))
            (shapeCast S1x256 b2 h))
          batch wfc bfc := by
  unfold whole
  rw [dot1_eq, biasRelu_eq _ b1 h, dot2_eq, biasRelu_eq _ b2 h]

end Cert.Gcn

end
-- ==== Proof.lean ====
/-
  A two-layer graph convolution network with a mean-pool head: the tiled kernels against the plain reference.

  The kernel program computes the per-edge normalisation once on the host, runs each dense stage as a grid kernel
  over blocks of 2000 node rows — `x · W1`; `max (agg + b1, 0) · W2`; `max (agg + b2, 0)` — and leaves the two rounds of
  message passing and the pooling head to host operations. The reference applies the same host operations with each dense
  stage as one whole-array operation, and computes the normalisation once per layer from the same edge list.

  On the extended reals a change of float format is the identity, a row block of a matrix product is the product of the
  row block, and adding a bias row and clamping act entry by entry; so each kernel leaves the whole-array value the
  reference computes at that place, and the two results are one function of the nine arguments (`Cert.Gcn.whole`). No
  law used needs the inputs to be finite. The idealization rewrote nothing, so `preserves` is trivial; the two kernel
  programs' frames are the generated ones and the reference's frame is its run with the result dropped.
-/
import proofs.«161100_j18511309045924_1_alg».proof.Defs
import proofs.«161100_j18511309045924_1_alg».proof.Proof.Gen.Kernel
import proofs.«161100_j18511309045924_1_alg».proof.Proof.Gen.Kernel.Frame
import proofs.«161100_j18511309045924_1_alg».proof.Proof.Gen.KernelIdeal
import proofs.«161100_j18511309045924_1_alg».proof.Proof.Gen.KernelIdeal.Frame
import proofs.«161100_j18511309045924_1_alg».proof.Proof.Gen.ReferenceIdeal
import proofs.«161100_j18511309045924_1_alg».proof.Proof.Gen.Pre_finite_inputs
import proofs.«161100_j18511309045924_1_alg».proof.Proof.KernelRun
import proofs.«161100_j18511309045924_1_alg».proof.Proof.KernelValue
import proofs.«161100_j18511309045924_1_alg».proof.Proof.RefRun
import proofs.«161100_j18511309045924_1_alg».proof.Proof.RefValue
import proofs.«161100_j18511309045924_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The kernel program's result buffer ends at the network function of its arguments' launch contents. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W9 m ρ c (Proc.devRef .tc Cert.KernelIdeal.main_v92)
      = Cert.Gcn.whole (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  (Cert.KernelIdeal.Chain.result m ρ c).trans
    (Cert.Gcn.whole_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      Cert.KernelIdeal.Gen.shapeCasts_S256_S1x256).symm

/-- Run from memories that agree on the arguments, both idealized programs end, with equal results: each result is the
    network function of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v92), Cert.KernelIdeal.Whole.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.RefValue.result_eq m' c, h0, h1, h2, h3, h4, h5, h6, h7, h8]
  exact (kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
